-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) (main_arg9 : IVec S2x1600000 32) (main_arg10 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S10000x128 : Shape := ⟨2, ![10000, 128]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 104
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S2x1600000, .i32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S512x128, .f32⟩
  | .hbm, ⟨89, _⟩ => ⟨S100000x1, .i32⟩
  | .hbm, ⟨90, _⟩ => ⟨S512x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S512, .f32⟩
  | .hbm, ⟨95, _⟩ => ⟨S100000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x128, .f32⟩
  | .hbm, ⟨102, _⟩ => ⟨S512x128, .f32⟩
  | .hbm, ⟨103, _⟩ => ⟨S512x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S512x128, .f32⟩
  | .local _ .vmem, ⟨25, _⟩ => ⟨S128x128, .f32⟩
  | .local _ .vmem, ⟨26, _⟩ => ⟨S128, .f32⟩
  | .local _ .vmem, ⟨27, _⟩ => ⟨S128x1, .f32⟩
  | .local _ .vmem, ⟨28, _⟩ => ⟨S1, .f32⟩
  | .local _ .vmem, ⟨29, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S10000x128_S10000x128 : S10000x128.ShapeCasts S10000x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x1.size a ≤ S512x1.size a
  hwx4_5 : ∀ i : grid4.Coords, EltTy.bits .f32 = 32 ∨ (Rect.block (s := S512x1) S512x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75) S512x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S2x1600000, .i32⟩
  | 10 => ⟨S100000, .i32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x1, .f32⟩
  | 112 => ⟨S1600000x128, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S512x128, .f32⟩
  | 3 => ⟨S100000x1, .i32⟩
  | 4 => ⟨S512x128, .f32⟩
  | 5 => ⟨S_, .f32⟩
  | 6 => ⟨S100000, .f32⟩
  | 7 => ⟨S_, .f32⟩
  | 8 => ⟨S512, .f32⟩
  | 9 => ⟨S100000x1, .i32⟩
  | 10 => ⟨S512, .f32⟩
  | 11 => ⟨S_, .f32⟩
  | 12 => ⟨S512, .f32⟩
  | 13 => ⟨S512, .f32⟩
  | 14 => ⟨S512x1, .f32⟩
  | 15 => ⟨S512x128, .f32⟩
  | 16 => ⟨S512x128, .f32⟩
  | 17 => ⟨S512x128, .f32⟩
  | 18 => ⟨S1x128, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x1, .f32⟩
  | 25 => ⟨S1x1, .f32⟩
  | 26 => ⟨S512x1, .f32⟩
  | 27 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call2_cst : Ref sig .tc := ⟨.hbm, 149, rfl⟩
abbrev main_call2_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KernelRun.lean ====
/-
  The kernel program's run with its result named.

  The program is five kernel launches among stretches of host operations.  Its buffer contents at each boundary between
  two such segments are a fold from the launch memory: a stretch applies its operations, a launch replaces each of its
  arrays by what the write-backs of its grid points leave.  Every weakly fair execution terminates, without a fault, and
  the final memory holds, at every buffer that outlives a launch, the last boundary's contents: in particular the result
  buffer ends at the contents the last launch leaves in its output array, and every argument as it was launched.
-/
import proofs.«150151_j30949534335547_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument at its launch contents. -/
theorem run_named : θ_run defs (onTc (τ := τ) (main (F := F))) ⟨m, fun _ => 0, ρ⟩ (fun r => ∀ c : Dev nD,
      r.2.mem ((c.tc : Thread nD τ).loc main_v75) = W9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v75 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.Gcn.KernelRun

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.MatSpec.lean ====
/-
  The textbook matrix product as an index-by-index function: entry `(r, c)` of the product of an `M × K` array with a
  `K × N` array is the sum over `k` of the left array at `(r, k)` times the right array at `(k, c)`, on the extended
  reals.  Both a kernel's product into a zero accumulator and the host's contraction are this function.
-/
import proofs.«150151_j30949534335547_1_alg».proof.Proof.LibPlainDot

noncomputable section

open scoped BigOperators

namespace Cert.Gcn

open Idealize.ShloMosaic Idealize.ShloMosaic.ValueIdx

/-- The product of an `M × K` array and a `K × N` array. -/
def prod {M K N : Nat} (a : FVec Ideal (⟨2, ![M, K]⟩ : Shape) .f32) (w : FVec Ideal (⟨2, ![K, N]⟩ : Shape) .f32) :
    FVec Ideal (⟨2, ![M, N]⟩ : Shape) .f32 :=
  fun i => ∑ k : Fin K, a (ix2 (i 0) k) * w (ix2 k (i 1))

end Cert.Gcn

end
-- ==== Proof.Mat0.lean ====
/-
  Kernel launch 0 multiplies the node features by a weight matrix, ten thousand rows at a grid point.

  At point `t` the body loads rows `10000 t … 10000 t + 9999` of the features and the whole weight matrix, and stores their
  product (the conversion to bf16 is the identity on the extended reals, and the accumulator starts at zero).  Entry
  `(p, q)` of that product is the sum over `k` of the block's `(p, k)` times the weight's `(k, q)`, that is entry
  `(10000 t + p, q)` of the product of the whole arrays: every point writes back its own block of ONE array, the ten
  blocks tile the hundred thousand rows, and so the output array ends as the product of the arrays the launch found.
-/
import proofs.«150151_j30949534335547_1_alg».proof.Proof.Gen.KernelIdeal.Frame
import proofs.«150151_j30949534335547_1_alg».proof.Proof.MatSpec
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Mat0

open Cert.KernelIdeal Cert.KernelIdeal.Gen
open Idealize.ShloMosaic Idealize.ShloMosaic.TcCoe Idealize.SL.Sem Idealize.ShloMosaic.ValueIdx
open Idealize.ShloMosaic.Pipeline (Dat)

/-! ## The body's product at an index -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores is the product of the two blocks it loaded. -/
theorem pay_eq (a : FVec Ideal S10000x128 .f32) (w : FVec Ideal S128x128 .f32) :
    k0_pay1 (F := Ideal) a w = Cert.Gcn.prod (M := 10000) (K := 128) (N := 128) a w := by
  funext j
  unfold k0_pay1
  exact Cert.Lib.PlainDot.matmul_zero_apply (M := 10000) (K := 128) (N := 128) dot_S10000x128_S128x128_S10000x128_1_0_0_1_n_n rfl rfl
    lhs0 lhs1 rhs0 rhs1 none _ _ j

/-! ## From the blocks to the array -/

theorem hz : (![0, 0] : Fin 2 → Nat) = fun _ => 0 := funext fun a => by fin_cases a <;> rfl

/-- The block index of each window at a point: the features' and the output's blocks move down the rows with the point,
    the weight's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

variable (V : (c : Dev nD) → (b : Ref sig .tc) → Buf (Elt Ideal) ((c : Thread nD τ).loc b))

/-- What point `t` writes back is its block of the product of the two arrays. -/
theorem flushed_eq (c : Dev nD) (t : Fin cfg0.N) :
    (dat0 (F := Ideal) V c).flushed 2 t
      = ((cfg0.win 2).blk t).view.read (Elt Ideal) (Cert.Gcn.prod (M := 100000) (K := 128) (N := 128) (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay_eq]
  obtain ⟨e0, e1, e2, e3, e4, e5, e6⟩ := idx_facts t
  funext j
  show Cert.Gcn.prod (M := 10000) (K := 128) (N := 128) (iblk0 V c 0 t) (iblk0 V c 1 t) j
    = Cert.Gcn.prod (M := 100000) (K := 128) (N := 128) (V c main_arg0) (V c main_arg1) (((cfg0.win 2).blk t).view.emb j)
  unfold Cert.Gcn.prod
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) h0) (congrArg (V c main_arg1) h1)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- Every point's block is some rows' block. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten blocks cover the array: row `r` is in the block of point `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the launch is the product of the two arrays the launch found. -/
theorem final (c : Dev nD) :
    (dat0 (F := Ideal) V c).arrAt 2 cfg0.N = Cert.Gcn.prod (M := 100000) (K := 128) (N := 128) (V c main_arg0) (V c main_arg1) :=
  (dat0 (F := Ideal) V c).arrAt_eq_of_cover 2 _ (fun t _ => flushed_eq V c t) cover

end Cert.Gcn.Mat0

end
-- ==== Proof.CombSpec.lean ====
/-
  The end of a graph-convolution layer as an index-by-index function: entry `(r, c)` is
  `max (a (r, c) + s (r, c) + b c, 0)` on the extended reals, for two `M × N` arrays and a bias vector of length `N`.
-/
import Idealize.ShloMosaic.Lib.ValueIdx
import Idealize.ShloMosaic.PureOps.Ideal

noncomputable section

namespace Cert.Gcn

open Idealize.ShloMosaic Idealize.ShloMosaic.ValueIdx

/-- `max (a + s + b, 0)`, the bias added to every row. -/
def relu3 {M N : Nat} (a s : FVec Ideal (⟨2, ![M, N]⟩ : Shape) .f32) (b : FVec Ideal (⟨1, ![N]⟩ : Shape) .f32) :
    FVec Ideal (⟨2, ![M, N]⟩ : Shape) .f32 :=
  fun i => FloatOps.maximumf (F := Ideal) (FloatOps.addf (FloatOps.addf (a i) (s i)) (b (ix1 (i 1))))
    (FloatOps.ofBits (F := Ideal) .f32 0x00000000#32)

end Cert.Gcn

end
-- ==== Proof.Comb1.lean ====
/-
  Kernel launch 1 ends a layer, five thousand rows at a grid point.

  At point `t` the body loads rows `5000 t … 5000 t + 4999` of the aggregated messages and of the self-loop term and the
  whole bias vector, and stores `max (agg + self + b, 0)`, the bias added to every row.  Entry `(p, q)` of what it stores
  depends on entry `(5000 t + p, q)` of the two arrays and entry `q` of the bias only: every point writes back its own
  block of ONE array, the twenty blocks tile the hundred thousand rows, and so the output array ends as that function of
  the arrays the launch found.
-/
import proofs.«150151_j30949534335547_1_alg».proof.Proof.Gen.KernelIdeal.Frame
import proofs.«150151_j30949534335547_1_alg».proof.Proof.CombSpec
import Idealize.ShloMosaic.Lib.Pipeline.Value
import Idealize.ShloMosaic.Lib.ValueIdx
import Idealize.ShloMosaic.Lib.ValueLayout

set_option maxRecDepth 16384

noncomputable section

namespace Cert.Gcn.Comb1

open Cert.KernelIdeal Cert.KernelIdeal.Gen
open Idealize.ShloMosaic Idealize.ShloMosaic.TcCoe Idealize.SL.Sem Idealize.ShloMosaic.ValueIdx
open Idealize.ShloMosaic.Pipeline (Dat)

/-! ## What the body stores, at an index -/

/-- What the body stores is `max (a + s + b, 0)` of the blocks it loaded. -/
theorem pay_eq (a s : FVec Ideal S5000x128 .f32) (b : FVec Ideal S128 .f32) :
    k1_pay1 (F := Ideal) a s b = Cert.Gcn.relu3 (M := 5000) (N := 128) a s b := by
  funext j
  obtain ⟨p, q, rfl⟩ : ∃ (p : Fin 5000) (q : Fin 128), j = ix2 p q := ⟨j 0, j 1, eq_ix2 j⟩
  have hb : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  show FloatOps.maximumf (FloatOps.addf (FloatOps.addf (shapeCast S5000x128 a shapeCasts_S5000x128_S5000x128 (ix2 p q)) (shapeCast S5000x128 s shapeCasts_S5000x128_S5000x128 (ix2 p q))) (broadcastTo S5000x128 (shapeCast S1x128 b shapeCasts_S128_S1x128) broadcasts_S1x128_S5000x128 (ix2 p q))) _ = _
  rw [hb, shapeCast_self, shapeCast_self]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a; rfl

/-- The block index of each window at a point: the two inputs' and the output's blocks move down the rows with the
    point, the bias's block stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 ∧ t.val < 20 :=
  (by decide +kernel : ∀ t : Fin grid1.N, _)

variable (V : (c : Dev nD) → (b : Ref sig .tc) → Buf (Elt Ideal) ((c : Thread nD τ).loc b))

/-- What point `t` writes back is its block of `max (agg + self + b, 0)` of the three arrays. -/
theorem flushed_eq (c : Dev nD) (t : Fin cfg1.N) :
    (dat1 (F := Ideal) V c).flushed 3 t
      = ((cfg1.win 3).blk t).view.read (Elt Ideal) (Cert.Gcn.relu3 (M := 100000) (N := 128) (V c main_v40) (V c main_v43) (V c main_arg2)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1]
  rw [pay_eq]
  obtain ⟨e0, e1, e2, e3, e4, e5, e6, e7⟩ := idx_facts t
  funext j
  show FloatOps.maximumf (F := Ideal) (FloatOps.addf (FloatOps.addf (V c main_v40 (((cfg1.win 0).blk t).view.emb j)) (V c main_v43 (((cfg1.win 1).blk t).view.emb j))) (V c main_arg2 (((cfg1.win 2).blk t).view.emb (ix1 (j 1))))) _
    = FloatOps.maximumf (F := Ideal) (FloatOps.addf (FloatOps.addf (V c main_v40 (((cfg1.win 3).blk t).view.emb j)) (V c main_v43 (((cfg1.win 3).blk t).view.emb j))) (V c main_arg2 (ix1 ((((cfg1.win 3).blk t).view.emb j) 1)))) _
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix1 (j 1)) = ix1 ((((cfg1.win 3).blk t).view.emb j) 1) := by
    funext a; apply Fin.ext
    match a with
    | ⟨0, _⟩ => show win1_2.index t (0 : Fin 1) * 128 + 1 * (j 1).val = win1_3.index t (1 : Fin 2) * 128 + 1 * (j 1).val; omega
  rw [h0, h1, h2]
  rfl

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v44).slice (win1_3.rect t)).set ↔ _
  rw [View.set_slice_whole, Rect.mem_set_unit]
  exact Iff.rfl

/-- Every block of rows is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- The twenty blocks cover the array: row `r` is in the block of point `r / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the launch is `max (agg + self + b, 0)` of the three arrays the launch found. -/
theorem final (c : Dev nD) :
    (dat1 (F := Ideal) V c).arrAt 3 cfg1.N = Cert.Gcn.relu3 (M := 100000) (N := 128) (V c main_v40) (V c main_v43) (V c main_arg2) :=
  (dat1 (F := Ideal) V c).arrAt_eq_of_cover 3 _ (fun t _ => flushed_eq V c t) cover

end Cert.Gcn.Comb1

end
-- ==== Proof.Mat2.lean ====
/-
  Kernel launch 2 multiplies the node features by a weight matrix, ten thousand rows at a grid point.

  At point `t` the body loads rows `10000 t … 10000 t + 9999` of the features and the whole weight matrix, and stores their
  product (the conversion to bf16 is the identity on the extended reals, and the accumulator starts at zero).  Entry
  `(p, q)` of that product is the sum over `k` of the block's `(p, k)` times the weight's `(k, q)`, that is entry
  `(10000 t + p, q)` of the product of the whole arrays: every point writes back its own block of ONE array, the ten
  blocks tile the hundred thousand rows, and so the output array ends as the product of the arrays the launch found.
-/
import proofs.«150151_j30949534335547_1_alg».proof.Proof.Gen.KernelIdeal.Frame
import proofs.«150151_j30949534335547_1_alg».proof.Proof.MatSpec
import Idealize.ShloMosaic.Lib.Pipeline.Value
import Idealize.ShloMosaic.Lib.ValueIdx
import Idealize.ShloMosaic.PureOps.Ideal.Laws

set_option maxRecDepth 16384

noncomputable section

open scoped BigOperators

namespace Cert.Gcn.Mat2

open Cert.KernelIdeal Cert.KernelIdeal.Gen
open Idealize.ShloMosaic Idealize.ShloMosaic.TcCoe Idealize.SL.Sem Idealize.ShloMosaic.ValueIdx
open Idealize.ShloMosaic.Pipeline (Dat)

/-! ## The body's product at an index -/

theorem lhs0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores is the product of the two blocks it loaded. -/
theorem pay_eq (a : FVec Ideal S10000x128 .f32) (w : FVec Ideal S128x128 .f32) :
    k2_pay1 (F := Ideal) a w = Cert.Gcn.prod (M := 10000) (K := 128) (N := 128) a w := by
  funext j
  unfold k2_pay1
  rw [shapeCast_self]
  exact Cert.Lib.PlainDot.matmul_zero_apply (M := 10000) (K := 128) (N := 128) dot_S10000x128_S128x128_S10000x128_1_0_0_1_n_n rfl rfl
    lhs0 lhs1 rhs0 rhs1 none _ _ j

/-! ## From the blocks to the array -/

theorem hz : (![0, 0] : Fin 2 → Nat) = fun _ => 0 := funext fun a => by fin_cases a <;> rfl

/-- The block index of each window at a point: the features' and the output's blocks move down the rows with the point,
    the weight's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

variable (V : (c : Dev nD) → (b : Ref sig .tc) → Buf (Elt Ideal) ((c : Thread nD τ).loc b))

/-- What point `t` writes back is its block of the product of the two arrays. -/
theorem flushed_eq (c : Dev nD) (t : Fin cfg2.N) :
    (dat2 (F := Ideal) V c).flushed 2 t
      = ((cfg2.win 2).blk t).view.read (Elt Ideal) (Cert.Gcn.prod (M := 100000) (K := 128) (N := 128) (V c main_v44) (V c main_arg3)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  rw [pay_eq]
  obtain ⟨e0, e1, e2, e3, e4, e5, e6⟩ := idx_facts t
  funext j
  show Cert.Gcn.prod (M := 10000) (K := 128) (N := 128) (iblk2 V c 0 t) (iblk2 V c 1 t) j
    = Cert.Gcn.prod (M := 100000) (K := 128) (N := 128) (V c main_v44) (V c main_arg3) (((cfg2.win 2).blk t).view.emb j)
  unfold Cert.Gcn.prod
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (fun a b : EReal => a * b) (congrArg (V c main_v44) h0) (congrArg (V c main_arg3) h1)

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v45).slice (win2_2.rect t)).set ↔ _
  rw [View.set_slice_whole, Rect.mem_set_unit]
  exact Iff.rfl

/-- Every point's block is some rows' block. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The ten blocks cover the array: row `r` is in the block of point `r / 10000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the launch is the product of the two arrays the launch found. -/
theorem final (c : Dev nD) :
    (dat2 (F := Ideal) V c).arrAt 2 cfg2.N = Cert.Gcn.prod (M := 100000) (K := 128) (N := 128) (V c main_v44) (V c main_arg3) :=
  (dat2 (F := Ideal) V c).arrAt_eq_of_cover 2 _ (fun t _ => flushed_eq V c t) cover

end Cert.Gcn.Mat2

end
-- ==== Proof.Comb3.lean ====
/-
  Kernel launch 3 ends a layer, five thousand rows at a grid point.

  At point `t` the body loads rows `5000 t … 5000 t + 4999` of the aggregated messages and of the self-loop term and the
  whole bias vector, and stores `max (agg + self + b, 0)`, the bias added to every row.  Entry `(p, q)` of what it stores
  depends on entry `(5000 t + p, q)` of the two arrays and entry `q` of the bias only: every point writes back its own
  block of ONE array, the twenty blocks tile the hundred thousand rows, and so the output array ends as that function of
  the arrays the launch found.
-/
import proofs.«150151_j30949534335547_1_alg».proof.Proof.Gen.KernelIdeal.Frame
import proofs.«150151_j30949534335547_1_alg».proof.Proof.CombSpec
import Idealize.ShloMosaic.Lib.Pipeline.Value
import Idealize.ShloMosaic.Lib.ValueIdx
import Idealize.ShloMosaic.Lib.ValueLayout

set_option maxRecDepth 16384

noncomputable section

namespace Cert.Gcn.Comb3

open Cert.KernelIdeal Cert.KernelIdeal.Gen
open Idealize.ShloMosaic Idealize.ShloMosaic.TcCoe Idealize.SL.Sem Idealize.ShloMosaic.ValueIdx
open Idealize.ShloMosaic.Pipeline (Dat)

/-! ## What the body stores, at an index -/

/-- What the body stores is `max (a + s + b, 0)` of the blocks it loaded. -/
theorem pay_eq (a s : FVec Ideal S5000x128 .f32) (b : FVec Ideal S128 .f32) :
    k3_pay1 (F := Ideal) a s b = Cert.Gcn.relu3 (M := 5000) (N := 128) a s b := by
  funext j
  obtain ⟨p, q, rfl⟩ : ∃ (p : Fin 5000) (q : Fin 128), j = ix2 p q := ⟨j 0, j 1, eq_ix2 j⟩
  have hb : broadcastTo S5000x128 (shapeCast S1x128 b shapeCasts_S128_S1x128) broadcasts_S1x128_S5000x128 (ix2 p q) = b (ix1 q) :=
    (broadcastTo_1b_ab_apply _ _ p q).trans (shapeCast_a_1a_apply b _ 0 q)
  show FloatOps.maximumf (FloatOps.addf (FloatOps.addf (shapeCast S5000x128 a shapeCasts_S5000x128_S5000x128 (ix2 p q)) (shapeCast S5000x128 s shapeCasts_S5000x128_S5000x128 (ix2 p q))) (broadcastTo S5000x128 (shapeCast S1x128 b shapeCasts_S128_S1x128) broadcasts_S1x128_S5000x128 (ix2 p q))) _ = _
  rw [hb, shapeCast_self, shapeCast_self]
  rfl

/-! ## From the blocks to the array -/

theorem hz : (![0, 0] : Fin 2 → Nat) = fun _ => 0 := funext fun a => by fin_cases a <;> rfl
theorem hz1 : (![0] : Fin 1 → Nat) = fun _ => 0 := funext fun a => by fin_cases a; rfl

/-- The block index of each window at a point: the two inputs' and the output's blocks move down the rows with the
    point, the bias's block stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 ∧ t.val < 20 :=
  (by decide +kernel : ∀ t : Fin grid3.N, _)

variable (V : (c : Dev nD) → (b : Ref sig .tc) → Buf (Elt Ideal) ((c : Thread nD τ).loc b))

/-- What point `t` writes back is its block of `max (agg + self + b, 0)` of the three arrays. -/
theorem flushed_eq (c : Dev nD) (t : Fin cfg3.N) :
    (dat3 (F := Ideal) V c).flushed 3 t
      = ((cfg3.win 3).blk t).view.read (Elt Ideal) (Cert.Gcn.relu3 (M := 100000) (N := 128) (V c main_v58) (V c main_v61) (V c main_arg4)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128) hz1]
  rw [pay_eq]
  obtain ⟨e0, e1, e2, e3, e4, e5, e6, e7⟩ := idx_facts t
  funext j
  show FloatOps.maximumf (F := Ideal) (FloatOps.addf (FloatOps.addf (V c main_v58 (((cfg3.win 0).blk t).view.emb j)) (V c main_v61 (((cfg3.win 1).blk t).view.emb j))) (V c main_arg4 (((cfg3.win 2).blk t).view.emb (ix1 (j 1))))) _
    = FloatOps.maximumf (F := Ideal) (FloatOps.addf (FloatOps.addf (V c main_v58 (((cfg3.win 3).blk t).view.emb j)) (V c main_v61 (((cfg3.win 3).blk t).view.emb j))) (V c main_arg4 (ix1 ((((cfg3.win 3).blk t).view.emb j) 1)))) _
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb (ix1 (j 1)) = ix1 ((((cfg3.win 3).blk t).view.emb j) 1) := by
    funext a; apply Fin.ext
    match a with
    | ⟨0, _⟩ => show win3_2.index t (0 : Fin 1) * 128 + 1 * (j 1).val = win3_3.index t (1 : Fin 2) * 128 + 1 * (j 1).val; omega
  rw [h0, h1, h2]
  rfl

/-- An index of the array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v62).slice (win3_3.rect t)).set ↔ _
  rw [View.set_slice_whole, Rect.mem_set_unit]
  exact Iff.rfl

/-- Every block of rows is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

/-- The twenty blocks cover the array: row `r` is in the block of point `r / 5000`. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the launch is `max (agg + self + b, 0)` of the three arrays the launch found. -/
theorem final (c : Dev nD) :
    (dat3 (F := Ideal) V c).arrAt 3 cfg3.N = Cert.Gcn.relu3 (M := 100000) (N := 128) (V c main_v58) (V c main_v61) (V c main_arg4) :=
  (dat3 (F := Ideal) V c).arrAt_eq_of_cover 3 _ (fun t _ => flushed_eq V c t) cover

end Cert.Gcn.Comb3

end
-- ==== Proof.MlpSpec.lean ====
/-
  The two-layer perceptron on the pooled graph features as an index-by-index function: the hidden layer is
  `max (g · w1 + b1, 0)`, the bias added to every row, and the result is `hidden · w2 + b2`, a single column.
-/
import proofs.«150151_j30949534335547_1_alg».proof.Proof.MatSpec

noncomputable section

namespace Cert.Gcn

open Idealize.ShloMosaic Idealize.ShloMosaic.ValueIdx

/-- The hidden layer `max (g · w1 + b1, 0)`. -/
def hidden (g : FVec Ideal (⟨2, ![512, 128]⟩ : Shape) .f32) (w1 : FVec Ideal (⟨2, ![128, 128]⟩ : Shape) .f32)
    (b1 : FVec Ideal (⟨1, ![128]⟩ : Shape) .f32) : FVec Ideal (⟨2, ![512, 128]⟩ : Shape) .f32 :=
  fun i => FloatOps.maximumf (F := Ideal) (FloatOps.addf (prod g w1 i) (b1 (ix1 (i 1)))) (FloatOps.ofBits (F := Ideal) .f32 0x00000000#32)

/-- The perceptron `hidden · w2 + b2`. -/
def mlp (g : FVec Ideal (⟨2, ![512, 128]⟩ : Shape) .f32) (w1 : FVec Ideal (⟨2, ![128, 128]⟩ : Shape) .f32)
    (b1 : FVec Ideal (⟨1, ![128]⟩ : Shape) .f32) (w2 : FVec Ideal (⟨2, ![128, 1]⟩ : Shape) .f32)
    (b2 : FVec Ideal (⟨1, ![1]⟩ : Shape) .f32) : FVec Ideal (⟨2, ![512, 1]⟩ : Shape) .f32 :=
  fun i => FloatOps.addf (F := Ideal) (prod (hidden g w1 b1) w2 i) (b2 (ix1 (0 : Fin 1)))

end Cert.Gcn

end
-- ==== Proof.Mlp.lean ====
/-
  Kernel launch 4 is the perceptron on the pooled features, in one grid point on whole arrays.

  The body loads the pooled features `g`, the two weight matrices and the two bias vectors, and stores
  `max (g · w1 + b1, 0) · w2 + b2`; the conversions to bf16 are the identity on the extended reals and both accumulators
  start at zero, so each product is the textbook sum over the contracted axis.  The one point's blocks are the whole
  arrays, so the output array ends as that function of the arrays the launch found.
-/
import proofs.«150151_j30949534335547_1_alg».proof.Proof.Gen.KernelIdeal.Frame
import proofs.«150151_j30949534335547_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Mlp

open Cert.KernelIdeal Cert.KernelIdeal.Gen
open Idealize.ShloMosaic Idealize.ShloMosaic.TcCoe Idealize.SL.Sem Idealize.ShloMosaic.ValueIdx
open Idealize.ShloMosaic.Pipeline (Dat)

/-! ## The body's two products and two bias broadcasts -/

theorem a_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem a_lhs1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem a_rhs0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem a_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem b_lhs0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem b_lhs1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem b_rhs0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem b_rhs1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The first product of the body is the textbook one. -/
theorem mm1_eq (x : FVec Ideal S512x128 .f32) (w : FVec Ideal S128x128 .f32) (h1 : FTy.bf16.bits < FTy.f32.bits) (h2 : FTy.bf16.bits < FTy.f32.bits) :
    matmul (F := Ideal) dot_S512x128_S128x128_S512x128_1_0_0_1_n_n none (truncf .bf16 x h1) (truncf .bf16 w h2) (constant (F := Ideal) S512x128 .f32 0x00000000#32)
      = Cert.Gcn.prod (M := 512) (K := 128) (N := 128) x w := by
  funext j
  exact Cert.Lib.PlainDot.matmul_zero_apply (M := 512) (K := 128) (N := 128) dot_S512x128_S128x128_S512x128_1_0_0_1_n_n rfl rfl a_lhs0 a_lhs1 a_rhs0 a_rhs1 none _ _ j

/-- The second product of the body is the textbook one. -/
theorem mm2_eq (x : FVec Ideal S512x128 .f32) (w : FVec Ideal S128x1 .f32) (h1 : FTy.bf16.bits < FTy.f32.bits) (h2 : FTy.bf16.bits < FTy.f32.bits) :
    matmul (F := Ideal) dot_S512x128_S128x1_S512x1_1_0_0_1_n_n none (truncf .bf16 x h1) (truncf .bf16 w h2) (constant (F := Ideal) S512x1 .f32 0x00000000#32)
      = Cert.Gcn.prod (M := 512) (K := 128) (N := 1) x w := by
  funext j
  exact Cert.Lib.PlainDot.matmul_zero_apply (M := 512) (K := 128) (N := 1) dot_S512x128_S128x1_S512x1_1_0_0_1_n_n rfl rfl b_lhs0 b_lhs1 b_rhs0 b_rhs1 none _ _ j

/-- The first bias as a row added to every row. -/
theorem brow_eq (b : FVec Ideal S128 .f32) (h1 : S128.ShapeCasts S1x128) (h2 : S1x128.Broadcasts S512x128) :
    broadcastTo S512x128 (shapeCast S1x128 b h1) h2 = fun i => b (ix1 (i 1)) := by
  funext j
  obtain ⟨p, k, rfl⟩ : ∃ (p : Fin 512) (k : Fin 128), j = ix2 p k := ⟨j 0, j 1, eq_ix2 j⟩
  exact (broadcastTo_1b_ab_apply _ _ p k).trans (shapeCast_a_1a_apply b _ 0 k)

/-- The second bias, one number, added to every entry. -/
theorem bcol_eq (b : FVec Ideal S1 .f32) (h1 : S1.ShapeCasts S1x1) (h2 : S1x1.Broadcasts S512x1) :
    broadcastTo S512x1 (shapeCast S1x1 b h1) h2 = fun _ => b (ix1 (0 : Fin 1)) := by
  funext j
  obtain ⟨p, q, rfl⟩ : ∃ (p : Fin 512) (q : Fin 1), j = ix2 p q := ⟨j 0, j 1, eq_ix2 j⟩
  exact (broadcastTo_1b_ab_apply _ _ p q).trans ((shapeCast_a_1a_apply b _ 0 q).trans
    (congrArg (fun x : Fin 1 => b (ix1 x)) (Subsingleton.elim q 0)))

/-- What the body stores is the perceptron of the arrays it loaded. -/
theorem pay_eq (g : FVec Ideal S512x128 .f32) (w1 : FVec Ideal S128x128 .f32) (b1 : FVec Ideal S128 .f32)
    (w2 : FVec Ideal S128x1 .f32) (b2 : FVec Ideal S1 .f32) :
    k4_pay1 (F := Ideal) g w1 b1 w2 b2 = Cert.Gcn.mlp g w1 b1 w2 b2 := by
  unfold k4_pay1
  dsimp only
  rw [shapeCast_self, mm1_eq, brow_eq, mm2_eq, bcol_eq]
  rfl

/-! ## The one point's blocks are the arrays -/

theorem hz : (![0, 0] : Fin 2 → Nat) = fun _ => 0 := funext fun a => by fin_cases a <;> rfl
theorem hz1 : (![0] : Fin 1 → Nat) = fun _ => 0 := funext fun a => by fin_cases a; rfl

/-- Every window's block index is zero on every axis at the one point. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0 :=
  (by decide +kernel : ∀ t : Fin grid4.N, _)

variable (V : (c : Dev nD) → (b : Ref sig .tc) → Buf (Elt Ideal) ((c : Thread nD τ).loc b))

/-- What the point writes back is the whole perceptron output. -/
theorem flushed_eq (c : Dev nD) (t : Fin cfg4.N) :
    (dat4 (F := Ideal) V c).flushed 5 t
      = ((cfg4.win 5).blk t).view.read (Elt Ideal) (Cert.Gcn.mlp (V c main_v74) (V c main_arg5) (V c main_arg6) (V c main_arg7) (V c main_arg8)) := by
  show (cfg4.win 5).cut (grid4.coords t) ((dat4 V c).after 5 t) = _
  rw [after4_5]
  unfold out4_5
  rw [View.canon_unit_zero hz]
  simp only [View.ld_unit_zero (S := S512x128) hz, View.ld_unit_zero (S := S128x128) hz, View.ld_unit_zero (S := S128) hz1,
    View.ld_unit_zero (S := S128x1) hz, View.ld_unit_zero (S := S1) hz1]
  rw [pay_eq]
  obtain ⟨e0, e1, e2, e3, e4, e5, e6, e7, e8, e9⟩ := idx_facts t
  have hb0 : iblk4 (F := Ideal) V c 0 t = V c main_v74 := by
    funext y
    show V c main_v74 (((cfg4.win 0).blk t).view.emb y) = V c main_v74 y
    refine congrArg (V c main_v74) (funext fun a => Fin.ext ?_)
    match a with
    | ⟨0, _⟩ => show win4_0.index t (0 : Fin 2) * 512 + 1 * (y 0).val = (y 0).val; omega
    | ⟨1, _⟩ => show win4_0.index t (1 : Fin 2) * 128 + 1 * (y 1).val = (y 1).val; omega
  have hb1 : iblk4 (F := Ideal) V c 1 t = V c main_arg5 := by
    funext y
    show V c main_arg5 (((cfg4.win 1).blk t).view.emb y) = V c main_arg5 y
    refine congrArg (V c main_arg5) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  have hb2 : iblk4 (F := Ideal) V c 2 t = V c main_arg6 := by
    funext y
    show V c main_arg6 (((cfg4.win 2).blk t).view.emb y) = V c main_arg6 y
    refine congrArg (V c main_arg6) (funext fun a => Fin.ext ?_)
    match a with
    | ⟨0, _⟩ => show win4_2.index t (0 : Fin 1) * 128 + 1 * (y 0).val = (y 0).val; omega
  have hb3 : iblk4 (F := Ideal) V c 3 t = V c main_arg7 := by
    funext y
    show V c main_arg7 (((cfg4.win 3).blk t).view.emb y) = V c main_arg7 y
    refine congrArg (V c main_arg7) (funext fun a => Fin.ext ?_)
    match a with
    | ⟨0, _⟩ => show win4_3.index t (0 : Fin 2) * 128 + 1 * (y 0).val = (y 0).val; omega
    | ⟨1, _⟩ => show win4_3.index t (1 : Fin 2) * 1 + 1 * (y 1).val = (y 1).val; omega
  have hb4 : iblk4 (F := Ideal) V c 4 t = V c main_arg8 := by
    funext y
    show V c main_arg8 (((cfg4.win 4).blk t).view.emb y) = V c main_arg8 y
    refine congrArg (V c main_arg8) (funext fun a => Fin.ext ?_)
    match a with
    | ⟨0, _⟩ => show win4_4.index t (0 : Fin 1) * 1 + 1 * (y 0).val = (y 0).val; omega
  rw [hb0, hb1, hb2, hb3, hb4]
  funext j
  show Cert.Gcn.mlp (V c main_v74) (V c main_arg5) (V c main_arg6) (V c main_arg7) (V c main_arg8) j
    = Cert.Gcn.mlp (V c main_v74) (V c main_arg5) (V c main_arg6) (V c main_arg7) (V c main_arg8) (((cfg4.win 5).blk t).view.emb j)
  refine congrArg _ (funext fun a => Fin.ext ?_).symm
  match a with
  | ⟨0, _⟩ => show win4_5.index t (0 : Fin 2) * 512 + 1 * (j 0).val = (j 0).val; omega
  | ⟨1, _⟩ => show win4_5.index t (1 : Fin 2) * 1 + 1 * (j 1).val = (j 1).val; omega

/-- An index of the array is in the point's block iff each coordinate is in the block's range on its axis. -/
theorem mem_blk (t : Fin cfg4.N) (i : S512x1.Idx) :
    i ∈ ((cfg4.win 5).blk t).view.set ↔ ∀ a : Fin 2, win4_5.index t a * S512x1.size a ≤ (i a).val ∧ (i a).val < win4_5.index t a * S512x1.size a + S512x1.size a := by
  show i ∈ ((View.whole main_v75).slice (win4_5.rect t)).set ↔ _
  rw [View.set_slice_whole, Rect.mem_set_unit]
  exact Iff.rfl

/-- The one block covers the array. -/
theorem cover (i : S512x1.Idx) : ∃ t : Fin cfg4.N, (cfg4.win 5).flush t = true ∧ i ∈ ((cfg4.win 5).blk t).view.set := by
  have hi0 : (i 0).val < 512 := (i 0).isLt
  have hi1 : (i 1).val < 1 := (i 1).isLt
  obtain ⟨e0, e1, e2, e3, e4, e5, e6, e7, e8, e9⟩ := idx_facts t4_0
  refine ⟨t4_0, flush4_5 t4_0, ?_⟩
  rw [mem_blk]
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 1 ≤ (i 1).val ∧ (i 1).val < win4_5.index t4_0 (1 : Fin 2) * 1 + 1; omega

/-- The output array after the launch is the perceptron of the five arrays the launch found. -/
theorem final (c : Dev nD) :
    (dat4 (F := Ideal) V c).arrAt 5 cfg4.N
      = Cert.Gcn.mlp (V c main_v74) (V c main_arg5) (V c main_arg6) (V c main_arg7) (V c main_arg8) :=
  (dat4 (F := Ideal) V c).arrAt_eq_of_cover 5 _ (fun t _ => flushed_eq V c t) cover

end Cert.Gcn.Mlp

end
-- ==== Proof.Spec.lean ====
/-
  The graph-convolution network both programs compute, as ONE function of the eleven argument arrays.

  With `src`, `dst` the two rows of the edge list, `deg v = 1 + #{e : dst e = v}`, `dinv = deg^(-1/2)` and
  `norm e = dinv (src e) · dinv (dst e)`, a layer maps node features `h` (already multiplied by the layer's weight
  matrix) to `max (agg + h · dinv² + b, 0)`, where `agg v` is the sum over the edges into `v` of `norm e · h (src e)`.
  Two layers are followed by the mean of the node features over each graph of the batch and a two-layer perceptron.
  Every gather, scatter-add, broadcast and arithmetic operation is written with the host operations of the reference
  program, so that the reference's result is this function by unfolding.
-/
import proofs.«150151_j30949534335547_1_alg».proof.ReferenceIdeal
import proofs.«150151_j30949534335547_1_alg».proof.Proof.Gen.ReferenceIdeal
import Idealize.ShloMosaic.PureOps.Ideal

noncomputable section

namespace Cert.Gcn

open Idealize.ShloMosaic Cert.ReferenceIdeal Cert.ReferenceIdeal.Gen

/-- The source node of every edge: row 0 of the edge list. -/
def srcOf (A9 : IVec S2x1600000 32) : IVec S1600000 32 :=
  shapeCast _ (extractStridedSlice S1x1600000 ![0, 0] A9 slices_S2x1600000_S1x1600000_0_0) shapeCasts_S1x1600000_S1600000

/-- The target node of every edge: row 1 of the edge list. -/
def dstOf (A9 : IVec S2x1600000 32) : IVec S1600000 32 :=
  shapeCast _ (extractStridedSlice S1x1600000 ![1, 0] A9 slices_S2x1600000_S1x1600000_1_0) shapeCasts_S1x1600000_S1600000

/-- A node index read the way jnp indexing reads it: a negative index counts from the end. -/
def wrapIdx (v : IVec S1600000 32) : IVec S1600000 32 :=
  select (cmpi .slt v (broadcastInDim S1600000 ![] bcast_S_S1600000 (constantI S_ 32 0#32))) (addi v (broadcastInDim S1600000 ![] bcast_S_S1600000 (constantI S_ 32 100000#32))) v

/-- `dinv = (1 + in-degree)^(-1/2)`, the in-degree counted by a scatter-add of ones along `dst`. -/
def dinvOf (dst : IVec S1600000 32) : FVec Ideal S100000 .f32 :=
  Host.rsqrt (F := Ideal) (addf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 dst) (broadcastInDim S1600000 ![] bcast_S_S1600000 (constant (F := Ideal) S_ .f32 0x3F800000#32))) (broadcastInDim S100000 ![] bcast_S_S100000 (constant (F := Ideal) S_ .f32 0x3F800000#32)))

/-- The edge weight `dinv (src e) · dinv (dst e)`. -/
def normOf (dinv : FVec Ideal S100000 .f32) (src dst : IVec S1600000 32) : FVec Ideal S1600000 .f32 :=
  mulf (Host.gather gather_S100000_S1600000x1_S1600000_n_0_n_n_0_1_1 dinv (broadcastInDim S1600000x1 ![0] bcast_S1600000_S1600000x1_0 (wrapIdx src))) (Host.gather gather_S100000_S1600000x1_S1600000_n_0_n_n_0_1_1 dinv (broadcastInDim S1600000x1 ![0] bcast_S1600000_S1600000x1_0 (wrapIdx dst)))

/-- The aggregated messages: row `v` is the sum over the edges into `v` of `norm e` times row `src e` of `h`. -/
def aggOf (h : FVec Ideal S100000x128 .f32) (norm : FVec Ideal S1600000 .f32) (src dst : IVec S1600000 32) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 dst) (mulf (Host.gather gather_S100000x128_S1600000x1_S1600000x128_1_0_n_n_0_1_1128 h (broadcastInDim S1600000x1 ![0] bcast_S1600000_S1600000x1_0 (wrapIdx src))) (broadcastInDim S1600000x128 ![0, 1] bcast_S1600000x1_S1600000x128_0_1 (broadcastInDim S1600000x1 ![0] bcast_S1600000_S1600000x1_0 norm)))

/-- The self-loop term: row `v` of `h` times `dinv v · dinv v`. -/
def selfOf (h : FVec Ideal S100000x128 .f32) (dinv : FVec Ideal S100000 .f32) : FVec Ideal S100000x128 .f32 :=
  mulf h (broadcastInDim S100000x128 ![0, 1] bcast_S100000x1_S100000x128_0_1 (broadcastInDim S100000x1 ![0] bcast_S100000_S100000x1_0 (mulf dinv dinv)))

/-- The end of a layer: `max (agg + self + b, 0)`, the bias `b` added to every row. -/
def combOf (a s : FVec Ideal S100000x128 .f32) (b : FVec Ideal S128 .f32) : FVec Ideal S100000x128 .f32 :=
  maximumf (addf (addf a s) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

/-- Node features times a weight matrix. -/
def mmOf (x : FVec Ideal S100000x128 .f32) (w : FVec Ideal S128x128 .f32) : FVec Ideal S100000x128 .f32 :=
  Host.dotGeneral (F := Ideal) dot_S100000x128_S128x128_S100000x128_1_0_0_1_n_n none x w

/-- One layer on features `h` already multiplied by the weights. -/
def layerOf (h : FVec Ideal S100000x128 .f32) (b : FVec Ideal S128 .f32) (A9 : IVec S2x1600000 32) : FVec Ideal S100000x128 .f32 :=
  combOf (aggOf h (normOf (dinvOf (dstOf A9)) (srcOf A9) (dstOf A9)) (srcOf A9) (dstOf A9)) (selfOf h (dinvOf (dstOf A9))) b

/-- The mean of the node features over each graph: the per-graph sums divided by `max (count, 1)`. -/
def poolOf (h : FVec Ideal S100000x128 .f32) (A10 : IVec S100000 32) : FVec Ideal S512x128 .f32 :=
  Host.divf (F := Ideal) (Host.scatterAdd (F := Ideal) scatter_S512x128_S100000x1_S100000x128_1_0_0_1 (broadcastInDim S512x128 ![] bcast_S_S512x128 (constant (F := Ideal) S_ .f32 0x00000000#32)) (broadcastInDim S100000x1 ![0] bcast_S100000_S100000x1_0 A10) h) (broadcastInDim S512x128 ![0, 1] bcast_S512x1_S512x128_0_1 (broadcastInDim S512x1 ![0] bcast_S512_S512x1_0 (maximumf (Host.scatterAdd (F := Ideal) scatter_S512_S100000x1_S100000_n_0_0_1 (broadcastInDim S512 ![] bcast_S_S512 (constant (F := Ideal) S_ .f32 0x00000000#32)) (broadcastInDim S100000x1 ![0] bcast_S100000_S100000x1_0 A10) (broadcastInDim S100000 ![] bcast_S_S100000 (constant (F := Ideal) S_ .f32 0x3F800000#32))) (broadcastInDim S512 ![] bcast_S_S512 (constant (F := Ideal) S_ .f32 0x3F800000#32)))))

/-- The perceptron on the pooled features: `max (g · lw1 + lb1, 0) · lw2 + lb2`. -/
def mlpOf (g : FVec Ideal S512x128 .f32) (A5 : FVec Ideal S128x128 .f32) (A6 : FVec Ideal S128 .f32) (A7 : FVec Ideal S128x1 .f32) (A8 : FVec Ideal S1 .f32) : FVec Ideal S512x1 .f32 :=
  addf (Host.dotGeneral (F := Ideal) dot_S512x128_S128x1_S512x1_1_0_0_1_n_n none (maximumf (addf (Host.dotGeneral (F := Ideal) dot_S512x128_S128x128_S512x128_1_0_0_1_n_n none g A5) (broadcastInDim S512x128 ![0, 1] bcast_S1x128_S512x128_0_1 (broadcastInDim S1x128 ![1] bcast_S128_S1x128_1 A6))) (broadcastInDim S512x128 ![] bcast_S_S512x128 (constant (F := Ideal) S_ .f32 0x00000000#32))) A7) (broadcastInDim S512x1 ![0, 1] bcast_S1x1_S512x1_0_1 (broadcastInDim S1x1 ![1] bcast_S1_S1x1_1 A8))

/-- The whole network. -/
def netOf (A0 : FVec Ideal S100000x128 .f32) (A1 : FVec Ideal S128x128 .f32) (A2 : FVec Ideal S128 .f32) (A3 : FVec Ideal S128x128 .f32) (A4 : FVec Ideal S128 .f32)
    (A5 : FVec Ideal S128x128 .f32) (A6 : FVec Ideal S128 .f32) (A7 : FVec Ideal S128x1 .f32) (A8 : FVec Ideal S1 .f32) (A9 : IVec S2x1600000 32) (A10 : IVec S100000 32) :
    FVec Ideal S512x1 .f32 :=
  mlpOf (poolOf (layerOf (mmOf (layerOf (mmOf A0 A1) A2 A9) A3) A4 A9) A10) A5 A6 A7 A8

end Cert.Gcn

end
-- ==== Proof.Bridge.lean ====
/-
  The host forms of the three dense stages are the index-by-index functions the kernel launches compute.

  On the extended reals the host's contraction of an `M × K` array with a `K × N` array is the textbook product; a
  bias vector broadcast first to one row and then to every row reads, at `(r, c)`, the vector at `c`; and a scalar zero
  broadcast to an array reads zero everywhere.  So `mmOf` is `prod`, `combOf` is `relu3` and `mlpOf` is `mlp`.
-/
import proofs.«150151_j30949534335547_1_alg».proof.Proof.Gen.ReferenceIdeal.Read
import proofs.«150151_j30949534335547_1_alg».proof.Proof.Spec
import proofs.«150151_j30949534335547_1_alg».proof.Proof.MatSpec
import proofs.«150151_j30949534335547_1_alg».proof.Proof.CombSpec
import proofs.«150151_j30949534335547_1_alg».proof.Proof.MlpSpec
import Idealize.ShloMosaic.Lib.Pipeline.Value
import Idealize.ShloMosaic.Lib.ValueIdx

set_option maxRecDepth 16384

noncomputable section

open scoped BigOperators

namespace Cert.Gcn.Bridge

open Idealize.ShloMosaic Idealize.ShloMosaic.ValueIdx
open Cert.ReferenceIdeal Cert.ReferenceIdeal.Gen Cert.ReferenceIdeal.Read

/-- The host's contraction of the node features with a weight matrix is the textbook product. -/
theorem mmOf_eq (x : FVec Ideal S100000x128 .f32) (w : FVec Ideal S128x128 .f32) :
    Cert.Gcn.mmOf x w = Cert.Gcn.prod (M := 100000) (K := 128) (N := 128) x w := by
  funext j
  unfold Cert.Gcn.mmOf
  exact Cert.Lib.PlainDot.dotGeneral_apply (M := 100000) (K := 128) (N := 128) dot_S100000x128_S128x128_S100000x128_1_0_0_1_n_n rfl rfl
    lhs_main_v4_0 lhs_main_v4_1 rhs_main_v4_0 rhs_main_v4_1 none .single x w j

/-- The perceptron's first contraction is the textbook product. -/
theorem dg1_eq (x : FVec Ideal S512x128 .f32) (w : FVec Ideal S128x128 .f32) :
    Host.dotGeneral (F := Ideal) dot_S512x128_S128x128_S512x128_1_0_0_1_n_n none x w = Cert.Gcn.prod (M := 512) (K := 128) (N := 128) x w := by
  funext j
  exact Cert.Lib.PlainDot.dotGeneral_apply (M := 512) (K := 128) (N := 128) dot_S512x128_S128x128_S512x128_1_0_0_1_n_n rfl rfl
    lhs_main_v106_0 lhs_main_v106_1 rhs_main_v106_0 rhs_main_v106_1 none .single x w j

/-- The perceptron's second contraction is the textbook product. -/
theorem dg2_eq (x : FVec Ideal S512x128 .f32) (w : FVec Ideal S128x1 .f32) :
    Host.dotGeneral (F := Ideal) dot_S512x128_S128x1_S512x1_1_0_0_1_n_n none x w = Cert.Gcn.prod (M := 512) (K := 128) (N := 1) x w := by
  funext j
  exact Cert.Lib.PlainDot.dotGeneral_apply (M := 512) (K := 128) (N := 1) dot_S512x128_S128x1_S512x1_1_0_0_1_n_n rfl rfl
    lhs_main_v111_0 lhs_main_v111_1 rhs_main_v111_0 rhs_main_v111_1 none .single x w j

/-- A bias vector broadcast to one row and then to every row of a `100000 × 128` array reads the vector at the column. -/
theorem brow_big (b : FVec Ideal S128 .f32) :
    broadcastInDim S100000x128 ![0, 1] bcast_S1x128_S100000x128_0_1 (broadcastInDim S1x128 ![1] bcast_S128_S1x128_1 b) = fun i => b (ix1 (i 1)) := by
  funext j
  obtain ⟨p, q, rfl⟩ : ∃ (p : Fin 100000) (q : Fin 128), j = ix2 p q := ⟨j 0, j 1, eq_ix2 j⟩
  refine (broadcastInDim_apply _ _ _ (ix2 p q) (ix2 (0 : Fin 1) q) (fun a => ?_)).trans
    (broadcastInDim_apply _ _ b (ix2 (0 : Fin 1) q) (ix1 q) (fun a => ?_))
  · match a with
    | ⟨0, _⟩ => rfl
    | ⟨1, _⟩ => rfl
  · match a with
    | ⟨0, _⟩ => rfl

/-- The same for a `512 × 128` array. -/
theorem brow_small (b : FVec Ideal S128 .f32) :
    broadcastInDim S512x128 ![0, 1] bcast_S1x128_S512x128_0_1 (broadcastInDim S1x128 ![1] bcast_S128_S1x128_1 b) = fun i => b (ix1 (i 1)) := by
  funext j
  obtain ⟨p, q, rfl⟩ : ∃ (p : Fin 512) (q : Fin 128), j = ix2 p q := ⟨j 0, j 1, eq_ix2 j⟩
  refine (broadcastInDim_apply _ _ _ (ix2 p q) (ix2 (0 : Fin 1) q) (fun a => ?_)).trans
    (broadcastInDim_apply _ _ b (ix2 (0 : Fin 1) q) (ix1 q) (fun a => ?_))
  · match a with
    | ⟨0, _⟩ => rfl
    | ⟨1, _⟩ => rfl
  · match a with
    | ⟨0, _⟩ => rfl

/-- A one-entry bias broadcast to a `512 × 1` column reads its one entry everywhere. -/
theorem bcol (b : FVec Ideal S1 .f32) :
    broadcastInDim S512x1 ![0, 1] bcast_S1x1_S512x1_0_1 (broadcastInDim S1x1 ![1] bcast_S1_S1x1_1 b) = fun _ => b (ix1 (0 : Fin 1)) := by
  funext j
  refine (broadcastInDim_apply _ _ _ j (ix2 (0 : Fin 1) (0 : Fin 1)) (fun a => ?_)).trans
    (broadcastInDim_apply _ _ b (ix2 (0 : Fin 1) (0 : Fin 1)) (ix1 (0 : Fin 1)) (fun a => ?_))
  · match a with
    | ⟨0, _⟩ => rfl
    | ⟨1, _⟩ => rfl
  · match a with
    | ⟨0, _⟩ => rfl

/-- The end of a layer in its host form is `max (a + s + b, 0)` index by index. -/
theorem combOf_eq (a s : FVec Ideal S100000x128 .f32) (b : FVec Ideal S128 .f32) :
    Cert.Gcn.combOf a s b = Cert.Gcn.relu3 (M := 100000) (N := 128) a s b := by
  unfold Cert.Gcn.combOf
  rw [brow_big]
  rfl

/-- The perceptron in its host form is the perceptron index by index. -/
theorem mlpOf_eq (g : FVec Ideal S512x128 .f32) (A5 : FVec Ideal S128x128 .f32) (A6 : FVec Ideal S128 .f32)
    (A7 : FVec Ideal S128x1 .f32) (A8 : FVec Ideal S1 .f32) :
    Cert.Gcn.mlpOf g A5 A6 A7 A8 = Cert.Gcn.mlp g A5 A6 A7 A8 := by
  unfold Cert.Gcn.mlpOf
  rw [dg1_eq, brow_small, dg2_eq, bcol]
  rfl

/-! ## The network over the index-by-index stages -/

/-- One layer on features `h` already multiplied by the weights, its end written index by index. -/
def kL (h : FVec Ideal S100000x128 .f32) (b : FVec Ideal S128 .f32) (A9 : IVec S2x1600000 32) : FVec Ideal S100000x128 .f32 :=
  Cert.Gcn.relu3 (M := 100000) (N := 128)
    (Cert.Gcn.aggOf h (Cert.Gcn.normOf (Cert.Gcn.dinvOf (Cert.Gcn.dstOf A9)) (Cert.Gcn.srcOf A9) (Cert.Gcn.dstOf A9)) (Cert.Gcn.srcOf A9) (Cert.Gcn.dstOf A9))
    (Cert.Gcn.selfOf h (Cert.Gcn.dinvOf (Cert.Gcn.dstOf A9))) b

/-- The whole network with its three dense stages written index by index. -/
def netK (A0 : FVec Ideal S100000x128 .f32) (A1 : FVec Ideal S128x128 .f32) (A2 : FVec Ideal S128 .f32) (A3 : FVec Ideal S128x128 .f32)
    (A4 : FVec Ideal S128 .f32) (A5 : FVec Ideal S128x128 .f32) (A6 : FVec Ideal S128 .f32) (A7 : FVec Ideal S128x1 .f32)
    (A8 : FVec Ideal S1 .f32) (A9 : IVec S2x1600000 32) (A10 : IVec S100000 32) : FVec Ideal S512x1 .f32 :=
  Cert.Gcn.mlp
    (Cert.Gcn.poolOf (kL (Cert.Gcn.prod (M := 100000) (K := 128) (N := 128) (kL (Cert.Gcn.prod (M := 100000) (K := 128) (N := 128) A0 A1) A2 A9) A3) A4 A9) A10)
    A5 A6 A7 A8

/-- A layer in its host form is the layer with its end written index by index. -/
theorem layerOf_eq (h : FVec Ideal S100000x128 .f32) (b : FVec Ideal S128 .f32) (A9 : IVec S2x1600000 32) :
    Cert.Gcn.layerOf h b A9 = kL h b A9 := by
  unfold Cert.Gcn.layerOf kL
  rw [combOf_eq]

/-- The network in its host form is the network over the index-by-index stages. -/
theorem netOf_eq (A0 : FVec Ideal S100000x128 .f32) (A1 : FVec Ideal S128x128 .f32) (A2 : FVec Ideal S128 .f32) (A3 : FVec Ideal S128x128 .f32)
    (A4 : FVec Ideal S128 .f32) (A5 : FVec Ideal S128x128 .f32) (A6 : FVec Ideal S128 .f32) (A7 : FVec Ideal S128x1 .f32)
    (A8 : FVec Ideal S1 .f32) (A9 : IVec S2x1600000 32) (A10 : IVec S100000 32) :
    Cert.Gcn.netOf A0 A1 A2 A3 A4 A5 A6 A7 A8 A9 A10 = netK A0 A1 A2 A3 A4 A5 A6 A7 A8 A9 A10 := by
  unfold Cert.Gcn.netOf netK
  simp only [mlpOf_eq, layerOf_eq, mmOf_eq]

end Cert.Gcn.Bridge

end
-- ==== Proof.Chain.lean ====
/-
  The kernel program's result is the network of its arguments.

  The buffer contents at the boundaries between the program's segments are followed from the launch to the return.
  The first stretch of host operations computes the edge endpoints, the degree normalisation and the edge weights from
  the edge list; each later stretch gathers, scales and scatter-adds the features a launch left; each launch leaves in
  its output array the index-by-index function of its input arrays.  A buffer that a segment does not write keeps its
  contents across it, so the endpoints, the normalisation and the arguments are read at every later boundary as they
  were first computed or launched.  Composing the stages gives the network with its dense stages written index by index.
-/
import proofs.«150151_j30949534335547_1_alg».proof.Proof.KernelRun
import proofs.«150151_j30949534335547_1_alg».proof.Proof.Mat0
import proofs.«150151_j30949534335547_1_alg».proof.Proof.Comb1
import proofs.«150151_j30949534335547_1_alg».proof.Proof.Mat2
import proofs.«150151_j30949534335547_1_alg».proof.Proof.Comb3
import proofs.«150151_j30949534335547_1_alg».proof.Proof.Mlp
import proofs.«150151_j30949534335547_1_alg».proof.Proof.Bridge
import Idealize.ShloMosaic.Lib.StableHlo.Run

set_option maxRecDepth 16384

noncomputable section

namespace Cert.Gcn.Chain

open Cert.KernelIdeal Cert.KernelIdeal.Gen
open Idealize.ShloMosaic Idealize.ShloMosaic.TcCoe Idealize.SL.Sem Idealize.ShloMosaic.StableHlo
open Cert.Gcn.Bridge (kL netK)

variable (m : (ℓ : Loc nD τ sig) → Buf (Elt Ideal) ℓ) (ρ : Dev nD → PrngReg) (c : Dev nD)

/-! ## After the first stretch: the edge endpoints, the normalisation, the edge weights -/

theorem w1_src : W1 m ρ c (Proc.devRef .tc main_v1) = (Cert.Gcn.srcOf (m ((c : Thread nD τ).loc main_arg9))) := by
  show StableHlo.after hostOps0 (W0 m ρ c) (Proc.devRef .tc main_v1) = _
  after_results_simp <;> rfl

theorem w1_dst : W1 m ρ c (Proc.devRef .tc main_v3) = (Cert.Gcn.dstOf (m ((c : Thread nD τ).loc main_arg9))) := by
  show StableHlo.after hostOps0 (W0 m ρ c) (Proc.devRef .tc main_v3) = _
  after_results_simp <;> rfl

theorem w1_dinv2 : W1 m ρ c (Proc.devRef .tc main_v11) = (mulf (Cert.Gcn.dinvOf (Cert.Gcn.dstOf (m ((c : Thread nD τ).loc main_arg9)))) (Cert.Gcn.dinvOf (Cert.Gcn.dstOf (m ((c : Thread nD τ).loc main_arg9))))) := by
  show StableHlo.after hostOps0 (W0 m ρ c) (Proc.devRef .tc main_v11) = _
  after_results_simp <;> rfl

theorem w1_norm : W1 m ρ c (Proc.devRef .tc main_v26) = (Cert.Gcn.normOf (Cert.Gcn.dinvOf (Cert.Gcn.dstOf (m ((c : Thread nD τ).loc main_arg9)))) (Cert.Gcn.srcOf (m ((c : Thread nD τ).loc main_arg9))) (Cert.Gcn.dstOf (m ((c : Thread nD τ).loc main_arg9)))) := by
  show StableHlo.after hostOps0 (W0 m ρ c) (Proc.devRef .tc main_v26) = _
  after_results_simp <;> rfl

/-! ## Each of them, and each argument, at the later boundaries where it is read -/

theorem w2_src : W2 m ρ c (Proc.devRef .tc main_v1) = (Cert.Gcn.srcOf (m ((c : Thread nD τ).loc main_arg9))) := by
  rw [W2_of_ne m ρ c main_v1 (by decide)]
  exact w1_src m ρ c

theorem w5_src : W5 m ρ c (Proc.devRef .tc main_v1) = (Cert.Gcn.srcOf (m ((c : Thread nD τ).loc main_arg9))) := by
  rw [W5_of_ne m ρ c main_v1 (by decide)]
  rw [W4_of_ne m ρ c main_v1 (by decide)]
  show StableHlo.after hostOps1 (W2 m ρ c) (Proc.devRef .tc main_v1) = _
  after_results_simp
  rw [W2_of_ne m ρ c main_v1 (by decide)]
  exact w1_src m ρ c

theorem w2_dst : W2 m ρ c (Proc.devRef .tc main_v3) = (Cert.Gcn.dstOf (m ((c : Thread nD τ).loc main_arg9))) := by
  rw [W2_of_ne m ρ c main_v3 (by decide)]
  exact w1_dst m ρ c

theorem w5_dst : W5 m ρ c (Proc.devRef .tc main_v3) = (Cert.Gcn.dstOf (m ((c : Thread nD τ).loc main_arg9))) := by
  rw [W5_of_ne m ρ c main_v3 (by decide)]
  rw [W4_of_ne m ρ c main_v3 (by decide)]
  show StableHlo.after hostOps1 (W2 m ρ c) (Proc.devRef .tc main_v3) = _
  after_results_simp
  rw [W2_of_ne m ρ c main_v3 (by decide)]
  exact w1_dst m ρ c

theorem w2_dinv2 : W2 m ρ c (Proc.devRef .tc main_v11) = (mulf (Cert.Gcn.dinvOf (Cert.Gcn.dstOf (m ((c : Thread nD τ).loc main_arg9)))) (Cert.Gcn.dinvOf (Cert.Gcn.dstOf (m ((c : Thread nD τ).loc main_arg9))))) := by
  rw [W2_of_ne m ρ c main_v11 (by decide)]
  exact w1_dinv2 m ρ c

theorem w5_dinv2 : W5 m ρ c (Proc.devRef .tc main_v11) = (mulf (Cert.Gcn.dinvOf (Cert.Gcn.dstOf (m ((c : Thread nD τ).loc main_arg9)))) (Cert.Gcn.dinvOf (Cert.Gcn.dstOf (m ((c : Thread nD τ).loc main_arg9))))) := by
  rw [W5_of_ne m ρ c main_v11 (by decide)]
  rw [W4_of_ne m ρ c main_v11 (by decide)]
  show StableHlo.after hostOps1 (W2 m ρ c) (Proc.devRef .tc main_v11) = _
  after_results_simp
  rw [W2_of_ne m ρ c main_v11 (by decide)]
  exact w1_dinv2 m ρ c

theorem w2_norm : W2 m ρ c (Proc.devRef .tc main_v26) = (Cert.Gcn.normOf (Cert.Gcn.dinvOf (Cert.Gcn.dstOf (m ((c : Thread nD τ).loc main_arg9)))) (Cert.Gcn.srcOf (m ((c : Thread nD τ).loc main_arg9))) (Cert.Gcn.dstOf (m ((c : Thread nD τ).loc main_arg9)))) := by
  rw [W2_of_ne m ρ c main_v26 (by decide)]
  exact w1_norm m ρ c

theorem w5_norm : W5 m ρ c (Proc.devRef .tc main_v26) = (Cert.Gcn.normOf (Cert.Gcn.dinvOf (Cert.Gcn.dstOf (m ((c : Thread nD τ).loc main_arg9)))) (Cert.Gcn.srcOf (m ((c : Thread nD τ).loc main_arg9))) (Cert.Gcn.dstOf (m ((c : Thread nD τ).loc main_arg9)))) := by
  rw [W5_of_ne m ρ c main_v26 (by decide)]
  rw [W4_of_ne m ρ c main_v26 (by decide)]
  show StableHlo.after hostOps1 (W2 m ρ c) (Proc.devRef .tc main_v26) = _
  after_results_simp
  rw [W2_of_ne m ρ c main_v26 (by decide)]
  exact w1_norm m ρ c

theorem w1_arg0 : W1 m ρ c (Proc.devRef .tc main_arg0) = (m ((c : Thread nD τ).loc main_arg0)) := by
  show StableHlo.after hostOps0 (W0 m ρ c) (Proc.devRef .tc main_arg0) = _
  after_results_simp

theorem w1_arg1 : W1 m ρ c (Proc.devRef .tc main_arg1) = (m ((c : Thread nD τ).loc main_arg1)) := by
  show StableHlo.after hostOps0 (W0 m ρ c) (Proc.devRef .tc main_arg1) = _
  after_results_simp

theorem w3_arg2 : W3 m ρ c (Proc.devRef .tc main_arg2) = (m ((c : Thread nD τ).loc main_arg2)) := by
  show StableHlo.after hostOps1 (W2 m ρ c) (Proc.devRef .tc main_arg2) = _
  after_results_simp
  rw [W2_of_ne m ρ c main_arg2 (by decide)]
  show StableHlo.after hostOps0 (W0 m ρ c) (Proc.devRef .tc main_arg2) = _
  after_results_simp

theorem w4_arg3 : W4 m ρ c (Proc.devRef .tc main_arg3) = (m ((c : Thread nD τ).loc main_arg3)) := by
  rw [W4_of_ne m ρ c main_arg3 (by decide)]
  show StableHlo.after hostOps1 (W2 m ρ c) (Proc.devRef .tc main_arg3) = _
  after_results_simp
  rw [W2_of_ne m ρ c main_arg3 (by decide)]
  show StableHlo.after hostOps0 (W0 m ρ c) (Proc.devRef .tc main_arg3) = _
  after_results_simp

theorem w6_arg4 : W6 m ρ c (Proc.devRef .tc main_arg4) = (m ((c : Thread nD τ).loc main_arg4)) := by
  show StableHlo.after hostOps3 (W5 m ρ c) (Proc.devRef .tc main_arg4) = _
  after_results_simp
  rw [W5_of_ne m ρ c main_arg4 (by decide)]
  rw [W4_of_ne m ρ c main_arg4 (by decide)]
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp

theorem w8_arg5 : W8 m ρ c (Proc.devRef .tc main_arg5) = (m ((c : Thread nD τ).loc main_arg5)) := by
  show StableHlo.after hostOps4 (W7 m ρ c) (Proc.devRef .tc main_arg5) = _
  after_results_simp
  rw [W7_of_ne m ρ c main_arg5 (by decide)]
  show StableHlo.after hostOps3 (W5 m ρ c) (Proc.devRef .tc main_arg5) = _
  after_results_simp
  rw [W5_of_ne m ρ c main_arg5 (by decide)]
  rw [W4_of_ne m ρ c main_arg5 (by decide)]
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

theorem w8_arg6 : W8 m ρ c (Proc.devRef .tc main_arg6) = (m ((c : Thread nD τ).loc main_arg6)) := by
  show StableHlo.after hostOps4 (W7 m ρ c) (Proc.devRef .tc main_arg6) = _
  after_results_simp
  rw [W7_of_ne m ρ c main_arg6 (by decide)]
  show StableHlo.after hostOps3 (W5 m ρ c) (Proc.devRef .tc main_arg6) = _
  after_results_simp
  rw [W5_of_ne m ρ c main_arg6 (by decide)]
  rw [W4_of_ne m ρ c main_arg6 (by decide)]
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp

theorem w8_arg7 : W8 m ρ c (Proc.devRef .tc main_arg7) = (m ((c : Thread nD τ).loc main_arg7)) := by
  show StableHlo.after hostOps4 (W7 m ρ c) (Proc.devRef .tc main_arg7) = _
  after_results_simp
  rw [W7_of_ne m ρ c main_arg7 (by decide)]
  show StableHlo.after hostOps3 (W5 m ρ c) (Proc.devRef .tc main_arg7) = _
  after_results_simp
  rw [W5_of_ne m ρ c main_arg7 (by decide)]
  rw [W4_of_ne m ρ c main_arg7 (by decide)]
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

theorem w8_arg8 : W8 m ρ c (Proc.devRef .tc main_arg8) = (m ((c : Thread nD τ).loc main_arg8)) := by
  show StableHlo.after hostOps4 (W7 m ρ c) (Proc.devRef .tc main_arg8) = _
  after_results_simp
  rw [W7_of_ne m ρ c main_arg8 (by decide)]
  show StableHlo.after hostOps3 (W5 m ρ c) (Proc.devRef .tc main_arg8) = _
  after_results_simp
  rw [W5_of_ne m ρ c main_arg8 (by decide)]
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp

theorem w7_arg10 : W7 m ρ c (Proc.devRef .tc main_arg10) = (m ((c : Thread nD τ).loc main_arg10)) := by
  rw [W7_of_ne m ρ c main_arg10 (by decide)]
  show StableHlo.after hostOps3 (W5 m ρ c) (Proc.devRef .tc main_arg10) = _
  after_results_simp
  rw [W5_of_ne m ρ c main_arg10 (by decide)]
  rw [W4_of_ne m ρ c main_arg10 (by decide)]
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp

/-! ## The stages -/

/-- Launch 0 leaves the first layer's features times weights. -/
theorem s_v27 : W2 m ρ c (Proc.devRef .tc main_v27) = (Cert.Gcn.prod (M := 100000) (K := 128) (N := 128) (m ((c : Thread nD τ).loc main_arg0)) (m ((c : Thread nD τ).loc main_arg1))) :=
  (W2_arr m ρ c 2).trans ((Cert.Gcn.Mat0.final (V1 m ρ) c).trans
    (congrArg₂ (Cert.Gcn.prod (M := 100000) (K := 128) (N := 128)) (w1_arg0 m ρ c) (w1_arg1 m ρ c)))

/-- The second stretch aggregates the messages of the first layer. -/
theorem s_v40 : W3 m ρ c (Proc.devRef .tc main_v40) = Cert.Gcn.aggOf (Cert.Gcn.prod (M := 100000) (K := 128) (N := 128) (m ((c : Thread nD τ).loc main_arg0)) (m ((c : Thread nD τ).loc main_arg1))) (Cert.Gcn.normOf (Cert.Gcn.dinvOf (Cert.Gcn.dstOf (m ((c : Thread nD τ).loc main_arg9)))) (Cert.Gcn.srcOf (m ((c : Thread nD τ).loc main_arg9))) (Cert.Gcn.dstOf (m ((c : Thread nD τ).loc main_arg9)))) (Cert.Gcn.srcOf (m ((c : Thread nD τ).loc main_arg9))) (Cert.Gcn.dstOf (m ((c : Thread nD τ).loc main_arg9))) := by
  show StableHlo.after hostOps1 (W2 m ρ c) (Proc.devRef .tc main_v40) = _
  after_results_simp
  rw [s_v27 m ρ c, w2_norm m ρ c, w2_src m ρ c, w2_dst m ρ c]
  rfl

/-- and forms the first layer's self-loop term. -/
theorem s_v43 : W3 m ρ c (Proc.devRef .tc main_v43) = Cert.Gcn.selfOf (Cert.Gcn.prod (M := 100000) (K := 128) (N := 128) (m ((c : Thread nD τ).loc main_arg0)) (m ((c : Thread nD τ).loc main_arg1))) (Cert.Gcn.dinvOf (Cert.Gcn.dstOf (m ((c : Thread nD τ).loc main_arg9)))) := by
  show StableHlo.after hostOps1 (W2 m ρ c) (Proc.devRef .tc main_v43) = _
  after_results_simp
  rw [s_v27 m ρ c, w2_dinv2 m ρ c]
  rfl

/-- Launch 1 leaves the first layer's output. -/
theorem s_v44 : W4 m ρ c (Proc.devRef .tc main_v44) = (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) := by
  refine (W4_arr m ρ c 3).trans ((Cert.Gcn.Comb1.final (V3 m ρ) c).trans ?_)
  show Cert.Gcn.relu3 (M := 100000) (N := 128) (W3 m ρ c (Proc.devRef .tc main_v40)) (W3 m ρ c (Proc.devRef .tc main_v43)) (W3 m ρ c (Proc.devRef .tc main_arg2)) = _
  rw [s_v40 m ρ c, s_v43 m ρ c, w3_arg2 m ρ c]
  rfl

/-- Launch 2 leaves the second layer's features times weights. -/
theorem s_v45 : W5 m ρ c (Proc.devRef .tc main_v45) = (Cert.Gcn.prod (M := 100000) (K := 128) (N := 128) (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) (m ((c : Thread nD τ).loc main_arg3))) :=
  (W5_arr m ρ c 2).trans ((Cert.Gcn.Mat2.final (V4 m ρ) c).trans
    (congrArg₂ (Cert.Gcn.prod (M := 100000) (K := 128) (N := 128)) (s_v44 m ρ c) (w4_arg3 m ρ c)))

/-- The third stretch aggregates the messages of the second layer. -/
theorem s_v58 : W6 m ρ c (Proc.devRef .tc main_v58) = Cert.Gcn.aggOf (Cert.Gcn.prod (M := 100000) (K := 128) (N := 128) (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) (m ((c : Thread nD τ).loc main_arg3))) (Cert.Gcn.normOf (Cert.Gcn.dinvOf (Cert.Gcn.dstOf (m ((c : Thread nD τ).loc main_arg9)))) (Cert.Gcn.srcOf (m ((c : Thread nD τ).loc main_arg9))) (Cert.Gcn.dstOf (m ((c : Thread nD τ).loc main_arg9)))) (Cert.Gcn.srcOf (m ((c : Thread nD τ).loc main_arg9))) (Cert.Gcn.dstOf (m ((c : Thread nD τ).loc main_arg9))) := by
  show StableHlo.after hostOps3 (W5 m ρ c) (Proc.devRef .tc main_v58) = _
  after_results_simp
  rw [s_v45 m ρ c, w5_norm m ρ c, w5_src m ρ c, w5_dst m ρ c]
  rfl

/-- and forms the second layer's self-loop term. -/
theorem s_v61 : W6 m ρ c (Proc.devRef .tc main_v61) = Cert.Gcn.selfOf (Cert.Gcn.prod (M := 100000) (K := 128) (N := 128) (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) (m ((c : Thread nD τ).loc main_arg3))) (Cert.Gcn.dinvOf (Cert.Gcn.dstOf (m ((c : Thread nD τ).loc main_arg9)))) := by
  show StableHlo.after hostOps3 (W5 m ρ c) (Proc.devRef .tc main_v61) = _
  after_results_simp
  rw [s_v45 m ρ c, w5_dinv2 m ρ c]
  rfl

/-- Launch 3 leaves the second layer's output. -/
theorem s_v62 : W7 m ρ c (Proc.devRef .tc main_v62) = (kL (Cert.Gcn.prod (M := 100000) (K := 128) (N := 128) (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) (m ((c : Thread nD τ).loc main_arg3))) (m ((c : Thread nD τ).loc main_arg4)) (m ((c : Thread nD τ).loc main_arg9))) := by
  refine (W7_arr m ρ c 3).trans ((Cert.Gcn.Comb3.final (V6 m ρ) c).trans ?_)
  show Cert.Gcn.relu3 (M := 100000) (N := 128) (W6 m ρ c (Proc.devRef .tc main_v58)) (W6 m ρ c (Proc.devRef .tc main_v61)) (W6 m ρ c (Proc.devRef .tc main_arg4)) = _
  rw [s_v58 m ρ c, s_v61 m ρ c, w6_arg4 m ρ c]
  rfl

/-- The last stretch takes the mean over each graph. -/
theorem s_v74 : W8 m ρ c (Proc.devRef .tc main_v74) = (Cert.Gcn.poolOf (kL (Cert.Gcn.prod (M := 100000) (K := 128) (N := 128) (kL (Cert.Gcn.prod (M := 100000) (K := 128) (N := 128) (m ((c : Thread nD τ).loc main_arg0)) (m ((c : Thread nD τ).loc main_arg1))) (m ((c : Thread nD τ).loc main_arg2)) (m ((c : Thread nD τ).loc main_arg9))) (m ((c : Thread nD τ).loc main_arg3))) (m ((c : Thread nD τ).loc main_arg4)) (m ((c : Thread nD τ).loc main_arg9))) (m ((c : Thread nD τ).loc main_arg10))) := by
  show StableHlo.after hostOps4 (W7 m ρ c) (Proc.devRef .tc main_v74) = _
  after_results_simp
  rw [s_v62 m ρ c, w7_arg10 m ρ c]
  rfl

/-- Launch 4 leaves the perceptron's output: the result buffer ends at the network of the arguments. -/
theorem s_v75 : W9 m ρ c (Proc.devRef .tc main_v75)
    = netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 5).trans ((Cert.Gcn.Mlp.final (V8 m ρ) c).trans ?_)
  show Cert.Gcn.mlp (W8 m ρ c (Proc.devRef .tc main_v74)) (W8 m ρ c (Proc.devRef .tc main_arg5)) (W8 m ρ c (Proc.devRef .tc main_arg6)) (W8 m ρ c (Proc.devRef .tc main_arg7)) (W8 m ρ c (Proc.devRef .tc main_arg8)) = _
  rw [s_v74 m ρ c, w8_arg5 m ρ c, w8_arg6 m ρ c, w8_arg7 m ρ c, w8_arg8 m ρ c]
  rfl

end Cert.Gcn.Chain

end
-- ==== Proof.RefIs.lean ====
/-
  The reference program computes the network of `Spec`: its run ends with the result buffer at the composed term of
  its host operations applied to the launch contents of the arguments, and that term is `Cert.Gcn.netOf` of those
  contents by unfolding the definitions (the reference recomputes the degree normalisation in each layer; the two
  copies are the same term).
-/
import proofs.«150151_j30949534335547_1_alg».proof.Proof.Gen.ReferenceIdeal.Run
import proofs.«150151_j30949534335547_1_alg».proof.Proof.Spec

noncomputable section

namespace Cert.Gcn.RefIs

open Idealize.ShloMosaic Idealize.ShloMosaic.TcCoe Idealize.SL.Sem
open Cert.ReferenceIdeal Cert.ReferenceIdeal.Gen

set_option maxRecDepth 65536 in
set_option maxHeartbeats 4000000 in
/-- The reference's result term is the network applied to the arguments' launch contents. -/
theorem res_eq (m : (ℓ : Loc nD τ sig) → Buf (Elt Ideal) ℓ) (c : Dev nD) :
    Cert.ReferenceIdeal.Value.res_main_v114 (F := Ideal) m c
      = Cert.Gcn.netOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v114 Cert.Gcn.netOf Cert.Gcn.mlpOf Cert.Gcn.poolOf Cert.Gcn.layerOf Cert.Gcn.mmOf
    Cert.Gcn.combOf Cert.Gcn.selfOf Cert.Gcn.aggOf Cert.Gcn.normOf Cert.Gcn.dinvOf Cert.Gcn.wrapIdx Cert.Gcn.srcOf Cert.Gcn.dstOf
  rfl

end Cert.Gcn.RefIs

end
-- ==== Proof.lean ====
/-
  A two-layer graph-convolution network with mean pooling and a perceptron: the kernel program against its reference.

  Both programs compute, from node features, two weight matrices with biases, an edge list and a batch vector,
  `mlp (mean-pool (layer (layer x)))`, where a layer multiplies the features by its weights, sums over the edges into each
  node the source node's features weighted by `deg(src)^(-1/2) · deg(dst)^(-1/2)`, adds the node's own features weighted by
  `1 / deg` and the bias, and takes the positive part.  The kernel program runs the two products, the two layer ends and
  the perceptron as kernel launches over row blocks and leaves the gathers and scatter-adds to host operations; the
  reference runs everything as host operations.

  On the extended reals the two results are the same function of the arguments: the host operations between the launches
  are the reference's own, applied to the same values; a launch's product into a zero accumulator is the host's
  contraction (both the textbook sum over the contracted axis, and the conversions to bf16 are the identity); a layer's
  end and the perceptron are the same pointwise arithmetic in the same order.  No algebraic law is used, so finiteness of
  the inputs is never needed.  The launches tile their output arrays, so each output array is one index-by-index function
  of the launch's input arrays (`Mat0`, `Comb1`, `Mat2`, `Comb3`, `Mlp`); `Chain` follows the buffer contents through the
  kernel program's segments to the result; `RefIs` and `Bridge` read the reference's result as the same function.
-/
import proofs.«150151_j30949534335547_1_alg».proof.Defs
import proofs.«150151_j30949534335547_1_alg».proof.Proof.Gen.Kernel
import proofs.«150151_j30949534335547_1_alg».proof.Proof.Gen.Kernel.Frame
import proofs.«150151_j30949534335547_1_alg».proof.Proof.Gen.KernelIdeal
import proofs.«150151_j30949534335547_1_alg».proof.Proof.Gen.KernelIdeal.Frame
import proofs.«150151_j30949534335547_1_alg».proof.Proof.Gen.ReferenceIdeal
import proofs.«150151_j30949534335547_1_alg».proof.Proof.Gen.Pre_finite_inputs
import proofs.«150151_j30949534335547_1_alg».proof.Proof.Gen.ReferenceIdeal.Run
import proofs.«150151_j30949534335547_1_alg».proof.Proof.KernelRun
import proofs.«150151_j30949534335547_1_alg».proof.Proof.Chain
import proofs.«150151_j30949534335547_1_alg».proof.Proof.RefIs
import proofs.«150151_j30949534335547_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network of the arguments in the result. -/
theorem algebraic : Cert.algebraic_KernelIdeal_ReferenceIdeal := by
  intro m ρ m' ρ' _ hagree
  refine ⟨fun c => Cert.Gcn.Bridge.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gcn.Chain.s_v75 m ρ c), (h c).2⟩)
      (Cert.Gcn.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.RefIs.res_eq, Cert.Gcn.Bridge.netOf_eq]
    obtain ⟨a0, a1, a2, a3, a4, a5, a6, a7, a8, a9, a10⟩ := hagree c
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
